-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S1024x2048 : Shape := ⟨2, ![1024, 2048]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg1 : FVec F S8388608 .f32) (main_v13 : IVec S_ 1) (main_v15 : IVec S8388608 1) (main_cst_5 : FVec F S_ .f32) : IVec S_ 1 :=
  let main_v16 : FVec F S8388608 .f32 := broadcastInDim S8388608 ![] bcast_S_S8388608 main_cst_5
  let main_v17 : IVec S8388608 1 := cmpf .oeq main_arg1 main_v16
  let main_v18 : IVec S8388608 1 := ori main_v15 main_v17
  let main_c_6 : IVec S_ 1 := constantI S_ 1 1#1
  let main_v19 : IVec S_ 1 := (fun x v => Host.reduce IntOp.andi x v reducesTo_S8388608_S_d0 h_S_) main_v18 main_c_6
  let main_v20 : IVec S_ 1 := andi main_v13 main_v19
  main_v20

def fn {F : FTy → Type} [FloatOps F] (main_arg0 : FVec F S8388608 .f32) (main_arg1 : FVec F S8388608 .f32) (main_arg2 : FVec F S1024x2048 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_cst_4 : FVec F S_ .f32 := constant S_ .f32 0x00000000#32
  let main_v14 : FVec F S8388608 .f32 := broadcastInDim S8388608 ![] bcast_S_S8388608 main_cst_4
  let main_v15 : IVec S8388608 1 := cmpf .oeq main_arg1 main_v14
  let main_cst_5 : FVec F S_ .f32 := constant S_ .f32 0x3F800000#32
  fn_part1 (F := F) main_arg1 main_v13 main_v15 main_cst_5
-- ==== Kernel.lean ====
abbrev S8388608 : Shape := ⟨1, ![8388608]⟩
abbrev S1024x2048 : Shape := ⟨2, ![1024, 2048]⟩
abbrev S8192x1024 : Shape := ⟨2, ![8192, 1024]⟩
abbrev S16x128 : Shape := ⟨2, ![16, 128]⟩
abbrev S1024x1024 : Shape := ⟨2, ![1024, 1024]⟩
abbrev S8x128 : Shape := ⟨2, ![8, 128]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S_ : Shape := ⟨0, ![]⟩
abbrev S1x2048 : Shape := ⟨2, ![1, 2048]⟩
abbrev S2048 : Shape := ⟨1, ![2048]⟩
abbrev S64x16 : Shape := ⟨2, ![64, 16]⟩
abbrev S64 : Shape := ⟨1, ![64]⟩

abbrev nBuf : Space → Nat
  | .hbm => 54
  | .vmem => 8
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S16x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x2048, .f32⟩
  | .hbm, ⟨14, _⟩ => ⟨S2048, .f32⟩
  | .hbm, ⟨15, _⟩ => ⟨S2048, .f32⟩
  | .hbm, ⟨16, _⟩ => ⟨S1024, .f32⟩
  | .hbm, ⟨17, _⟩ => ⟨S64x16, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1024, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S8x128, .f32⟩
  | .local _ .vmem, ⟨6, _⟩ => ⟨S1024x2048, .f32⟩
  | .local _ .vmem, ⟨7, _⟩ => ⟨S1x2048, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S8388608_S8192x1024 : S8388608.ShapeCasts S8192x1024
  inb_S8x128_S8x128_0_0 : ∀ a, (![0, 0] : Fin 2 → Nat) a + S8x128.size a ≤ S8x128.size a
  h_S8x128 : 0 < S8x128.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  shapeCasts_S1024_S1x1024 : S1024.ShapeCasts S1x1024
  reduces_S1x1024_S1 : S1x1024.Reduces [1] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S2048 : S1x2048.ShapeCasts S2048
  slices_S2048_S1024_0 : S2048.Slices ![0] S1024
  shapeCasts_S1024_S64x16 : S1024.ShapeCasts S64x16
  reducesTo_S64x16_S64_d1 : S64x16.ReducesTo [1] S64
  h_S_ : 0 < S_.numel
  bcast_S_S64 : S_.BroadcastsInDim S64 (![] : Fin 0 → Fin S64.rank)
  slices_S2048_S1024_1024 : S2048.Slices ![1024] S1024
  reducesTo_S64_S_d0 : S64.ReducesTo [0] S_
  bcast_S_S1024 : S_.BroadcastsInDim S1024 (![] : Fin 0 → Fin S1024.rank)
  reducesTo_S1024_S_d0 : S1024.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x2048.size a
  hwx1_0 : ∀ i : grid1.Coords, EltTy.bits .f32 = 32 ∨ (Rect.block (s := S1024x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8388608 : Shape := ⟨1, ![8388608]⟩
abbrev S1024x2048 : Shape := ⟨2, ![1024, 2048]⟩
abbrev S_ : Shape := ⟨0, ![]⟩
abbrev S2048 : Shape := ⟨1, ![2048]⟩
abbrev S64 : Shape := ⟨1, ![64]⟩
abbrev S64x16 : Shape := ⟨2, ![64, 16]⟩
abbrev S1024 : Shape := ⟨1, ![1024]⟩
abbrev S1024x1 : Shape := ⟨2, ![1024, 1]⟩

abbrev nBuf : Space → Nat
  | .hbm => 87
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S1024x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S_, .f32⟩
  | .hbm, ⟨9, _⟩ => ⟨S8388608, .f32⟩
  | .hbm, ⟨10, _⟩ => ⟨S8388608, .f32⟩
  | .hbm, ⟨11, _⟩ => ⟨S8388608, .f32⟩
  | .hbm, ⟨12, _⟩ => ⟨S_, .f32⟩
  | .hbm, ⟨13, _⟩ => ⟨S8388608, .f32⟩
  | .hbm, ⟨14, _⟩ => ⟨S8388608, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8388608, .f32⟩
  | .hbm, ⟨19, _⟩ => ⟨S8388608, .f32⟩
  | .hbm, ⟨20, _⟩ => ⟨S_, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S_, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1024x2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S64, .i32⟩
  | .hbm, ⟨46, _⟩ => ⟨S64x16, .i32⟩
  | .hbm, ⟨47, _⟩ => ⟨S1024, .i32⟩
  | .hbm, ⟨48, _⟩ => ⟨S1024, .f32⟩
  | .hbm, ⟨49, _⟩ => ⟨S_, .f32⟩
  | .hbm, ⟨50, _⟩ => ⟨S64, .f32⟩
  | .hbm, ⟨51, _⟩ => ⟨S1024x1, .i32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v4 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_5 : Ref sig .tc := ⟨.hbm, 28, rfl⟩
abbrev main_v9 : Ref sig .tc := ⟨.hbm, 29, rfl⟩
abbrev main_v10 : Ref sig .tc := ⟨.hbm, 30, rfl⟩
abbrev main_cst_6 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_cst_8 : Ref sig .tc := ⟨.hbm, 39, rfl⟩
abbrev main_v17 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_10 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_11 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_12 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_13 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_14 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel
  reducesTo_S1024x2048_S2048_d0 : S1024x2048.ReducesTo [0] S2048
  bcast_S64_S64x16_0 : S64.BroadcastsInDim S64x16 (![0] : Fin 1 → Fin S64x16.rank)
  shapeCasts_S64x16_S1024 : S64x16.ShapeCasts S1024
  slices_S2048_S1024_0 : S2048.Slices ![0] S1024
  bcast_S_S64 : S_.BroadcastsInDim S64 (![] : Fin 0 → Fin S64.rank)
  bcast_S1024_S1024x1_0 : S1024.BroadcastsInDim S1024x1 (![0] : Fin 1 → Fin S1024x1.rank)
  reducesTo_S64_S_d0 : S64.ReducesTo [0] S_
  slices_S2048_S1024_1024 : S2048.Slices ![1024] S1024
  bcast_S_S1024 : S_.BroadcastsInDim S1024 (![] : Fin 0 → Fin S1024.rank)
  reducesTo_S1024_S_d0 : S1024.ReducesTo [0] S_
  scatter_S64_S1024x1_S1024_n_0_0_1_wf : ScatterDims.WF S64 S1024x1 S1024 [] [0] [0] 1

variable [Facts₀]

def scatter_S64_S1024x1_S1024_n_0_0_1 : ScatterDims S64 S1024x1 S1024 where
  updateWindowDims := []
  insertedWindowDims := [0]
  scatterDimsToOperandDims := [0]
  indexVectorDim := 1
  wf := scatter_S64_S1024x1_S1024_n_0_0_1_wf

class Facts : Prop extends Facts₀ where

variable [Facts]
-- ==== Proof.KernelRun.lean ====
/-
  The idealized kernel's run with its result named: every weakly fair execution of @main terminates, the argument
  arrays end as launched, and the result buffer ends at the contents the last boundary of @main's segments gives it
  (the fold of the host stretches and of the two pipelined regions from the launch memory).
-/
import proofs.«118291_j87479893885401_2_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result buffer holds at the last boundary of @main's segments. -/
abbrev result (c : Dev nD) : Buf (Elt F) ((c.tc : Thread nD τ).loc main_v40) := W5 m ρ c (Proc.devRef .tc main_v40)

set_option backward.isDefEq.respectTransparency.types false in
/-- The run: the segments' launch, the last thread state read against the final state — the result buffer at the last
    boundary's contents, each argument walked back through the fold to its launch contents. -/
theorem run : θ_run defs (onTc (τ := τ) (main (F := F))) ⟨m, fun _ => 0, ρ⟩ (fun r => ∀ c : Dev nD,
      r.2.mem ((c.tc : Thread nD τ).loc main_v40) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Bridge

end
-- ==== Proof.Tail.lean ====
/-
  The part of the computation that both programs carry out on the host with the same operations in the same order, as
  functions over any float instance: the penalty `f x = 1 - exp (-(x * x) / 1) + |x|`, the regulariser built from the
  2048 column norms `cn` and the 64 group sums `gs` — `(∑ f (gs / 16) + ∑ f (cn[1024:])) * λ` —, and the final
  `total / 2^23 + regulariser`.
-/
import Idealize.ShloMosaic.PureOps
import Idealize.ShloMosaic.Lib.StableHlo

noncomputable section

namespace Cert.Spec

open Idealize.ShloMosaic

variable {F : FTy → Type} [FloatOps F]

abbrev T_ : Shape := ⟨0, ![]⟩
abbrev T64 : Shape := ⟨1, ![64]⟩
abbrev T1024 : Shape := ⟨1, ![1024]⟩
abbrev T2048 : Shape := ⟨1, ![2048]⟩

/-- The penalty on 64 values: `(1 - exp (-(x * x) / 1)) + |x|`, element by element. -/
def pen64 (x : FVec F T64 .f32) : FVec F T64 .f32 :=
  addf (subf (broadcastInDim T64 ![] (by decide) (constant T_ .f32 0x3F800000#32))
      (Host.exp (Host.divf (Host.negf (mulf x x)) (broadcastInDim T64 ![] (by decide) (constant T_ .f32 0x3F800000#32)))))
    (Host.absf x)

/-- The same penalty on 1024 values. -/
def pen1024 (x : FVec F T1024 .f32) : FVec F T1024 .f32 :=
  addf (subf (broadcastInDim T1024 ![] (by decide) (constant T_ .f32 0x3F800000#32))
      (Host.exp (Host.divf (Host.negf (mulf x x)) (broadcastInDim T1024 ![] (by decide) (constant T_ .f32 0x3F800000#32)))))
    (Host.absf x)

/-- The regulariser from the column norms and the group sums: the group means are the sums over 16, the ungrouped
    columns are the upper half of the norms; the two penalties are summed and scaled. -/
def regTail (cn : FVec F T2048 .f32) (gs : FVec F T64 .f32) : FVec F T_ .f32 :=
  mulf
    (addf
      (Host.reduceAdd (pen64 (Host.divf gs (broadcastInDim T64 ![] (by decide) (constant T_ .f32 0x41800000#32))))
        (constant T_ .f32 0x00000000#32) (by decide : T64.ReducesTo [0] T_) (by decide))
      (Host.reduceAdd (pen1024 (extractStridedSlice T1024 ![1024] cn (by decide)))
        (constant T_ .f32 0x00000000#32) (by decide : T1024.ReducesTo [0] T_) (by decide)))
    (constant T_ .f32 0x3C23D70A#32)

/-- The result: the summed loss over the element count, plus the regulariser. -/
def fin (s r : FVec F T_ .f32) : FVec F T_ .f32 :=
  addf (Host.divf s (constant T_ .f32 0x4B000000#32)) r

end Cert.Spec

end
-- ==== Proof.Region1.lean ====
/-
  What the second pipeline leaves in its [1, 2048] output array: its grid has one point whose blocks are the whole
  arrays, so the output ends at the body's one store payload of the launched weights.
-/
import proofs.«118291_j87479893885401_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Bridge

open Cert.KernelIdeal Cert.KernelIdeal.Gen

variable {F : FTy → Type} [FloatOps F]

/-- The constant-zero offsets of the body's whole-buffer accesses, as the zero function. -/
theorem r1_offsets_zero : (![0, 0] : Fin 2 → Nat) = fun _ => 0 := funext fun a => by fin_cases a <;> rfl

/-- The body loads its whole input buffer and stores once through its whole output buffer, so what it leaves in the
    output buffer is the store's payload of the input buffer's contents. -/
theorem r1_out_eq (x0 : Vec F S1024x2048 .f32) : out1_1 x0 = k1_pay1 x0 := by
  unfold out1_1
  rw [View.canon_unit_zero r1_offsets_zero]
  simp only [View.ld_unit_zero (S := S1024x2048) r1_offsets_zero]

/-- The weight array reaches the second region as launched: neither stretch of host operations before it writes it,
    and it is not an array of the first region. -/
theorem r1_entry_arg2 (m : (ℓ : Loc nD τ sig) → Buf (Elt F) ℓ) (ρ : Dev nD → PrngReg) (c : Dev nD) :
    V3 m ρ c main_arg2 = m ((c.tc : Thread nD τ).loc main_arg2) :=
  calc V3 m ρ c main_arg2
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-- The grid has one point and the input window's block there is the whole [1024,2048] array: block (0,0), read
    through zero offsets. -/
theorem r1_iblk_whole (V : (c : Dev nD) → (b : Ref sig .tc) → Buf (Elt F) ((c : Thread nD τ).loc b)) (c : Dev nD) :
    iblk1 V c 0 t1_0 = V c main_arg2 := by
  unfold iblk1
  have hz' : (fun a => win1_0.index t1_0 a * main_arg2.ty.shape.size a) = fun _ => 0 := funext fun a => by fin_cases a <;> decide
  exact Memref.read_access_unit_zero (Elt F) main_arg2 hz' (fun a => by rw [congrFun hz' a]; simp) (V c main_arg2)

/-- The one write-back writes the payload of the launched weights: block (0,0) of the [1,2048] output array, read
    through zero offsets, is the array. -/
theorem r1_flushed_eq (m : (ℓ : Loc nD τ sig) → Buf (Elt F) ℓ) (ρ : Dev nD → PrngReg) (c : Dev nD) (t : Fin cfg1.N)
    (hf : (cfg1.win 1).flush t = true) :
    (dat1 (V3 m ρ) c).flushed 1 t
      = ((cfg1.win 1).blk t).view.read (Elt F) (k1_pay1 (F := F) (m ((c.tc : Thread nD τ).loc main_arg2))) := by
  obtain rfl : t = t1_0 := fin_N1 t
  show (cfg1.win 1).cut (grid1.coords t1_0) ((dat1 (V3 m ρ) c).after 1 t1_0) = _
  rw [after1_1, r1_out_eq, r1_iblk_whole, r1_entry_arg2]
  have hz' : (fun a => win1_1.index t1_0 a * main_v9.ty.shape.size a) = fun _ => 0 := funext fun a => by fin_cases a <;> decide
  exact (Memref.read_access_unit_zero (Elt F) main_v9 hz' (fun a => by rw [congrFun hz' a]; simp) _).symm

/-- The second pipeline's output array ends at the body's store payload of the launched weights. -/
theorem arr1_eq (m : (ℓ : Loc nD τ sig) → Buf (Elt F) ℓ) (ρ : Dev nD → PrngReg) (c : Dev nD) :
    ((dat1 (V3 m ρ) c).arrAt 1 cfg1.N : Vec F S1x2048 .f32) = k1_pay1 (F := F) (m ((c.tc : Thread nD τ).loc main_arg2)) := by
  refine (dat1 (V3 m ρ) c).arrAt_eq_of_cover 1 _ (r1_flushed_eq m ρ c) fun i => ⟨t1_0, flush1_1 t1_0, ?_⟩
  show i ∈ ((View.whole main_v9).slice (win1_1.rect t1_0)).set
  rw [View.set_slice_whole, Rect.mem_set_unit]
  intro a
  have h0 : (i 0 : Nat) < 1 := (i 0).isLt
  have h1 : (i 1 : Nat) < 2048 := (i 1).isLt
  match a with
  | ⟨0, _⟩ =>
    show win1_1.index t1_0 0 * win1_1.size 0 ≤ (i 0 : Nat) ∧ (i 0 : Nat) < win1_1.index t1_0 0 * win1_1.size 0 + win1_1.xsize (grid1.coords t1_0) 0
    rw [show win1_1.index t1_0 0 * win1_1.size 0 = 0 from by decide +kernel, show win1_1.xsize (grid1.coords t1_0) 0 = 1 from by decide +kernel]
    omega
  | ⟨1, _⟩ =>
    show win1_1.index t1_0 1 * win1_1.size 1 ≤ (i 1 : Nat) ∧ (i 1 : Nat) < win1_1.index t1_0 1 * win1_1.size 1 + win1_1.xsize (grid1.coords t1_0) 1
    rw [show win1_1.index t1_0 1 * win1_1.size 1 = 0 from by decide +kernel, show win1_1.xsize (grid1.coords t1_0) 1 = 2048 from by decide +kernel]
    omega

end Cert.KernelIdeal.Bridge

end
-- ==== Proof.Spec.lean ====
/-
  The per-element loss terms of the two programs, as functions of one probability `p` and one label `y` over the
  extended reals.

  The kernel computes, per element, `(0 - w) * log (min c₁ (max c₀ q))` where, with the comparison `y > 1/2`,
  `w` is the weight `7/10`-pattern or `3/10`-pattern and `q` is `p` or `1 - p`: one logarithm per element.
  The reference computes `-((a * y) * log (clip p) + (b * (1 - y)) * log (clip (1 - p)))`: two logarithms per element.
  For a label that is exactly `0` or exactly `1` one of the reference's two products vanishes and the other is
  the kernel's single product.
-/
import Idealize.ShloMosaic.PureOps.Ideal

noncomputable section

namespace Cert.Spec

open Idealize.ShloMosaic

/-- The kernel's term for one element: the weight and the clipped argument of the logarithm are both chosen by the
    comparison `y > 1/2`. -/
def nllK (p y : Ideal .f32) : Ideal .f32 :=
  FloatOps.mulf
    (FloatOps.subf (Scalar.ofBits .f32 0x00000000#32)
      (Scalar.select (FloatOps.cmpf .ogt y (Scalar.ofBits .f32 0x3F000000#32))
        (Scalar.ofBits .f32 0x3F333333#32) (Scalar.ofBits .f32 0x3E99999A#32)))
    (FloatOps.log (FloatOps.minimumf (Scalar.ofBits .f32 0x3F7FFFFE#32)
      (FloatOps.maximumf (Scalar.ofBits .f32 0x34000000#32)
        (Scalar.select (FloatOps.cmpf .ogt y (Scalar.ofBits .f32 0x3F000000#32))
          p (FloatOps.subf (Scalar.ofBits .f32 0x3F800000#32) p)))))

/-- The reference's term for one element: the negated sum of the two weighted logarithms. -/
def nllR (p y : Ideal .f32) : Ideal .f32 :=
  FloatOps.hostNegf (FloatOps.addf
    (FloatOps.mulf (FloatOps.mulf (FloatOps.ofBits .f32 0x3F333333#32) y)
      (FloatOps.hostUnary .log (FloatOps.minimumf (FloatOps.ofBits .f32 0x3F7FFFFE#32)
        (FloatOps.maximumf (FloatOps.ofBits .f32 0x34000000#32) p))))
    (FloatOps.mulf (FloatOps.mulf (FloatOps.ofBits .f32 0x3E99999A#32) (FloatOps.subf (FloatOps.ofBits .f32 0x3F800000#32) y))
      (FloatOps.hostUnary .log (FloatOps.minimumf (FloatOps.ofBits .f32 0x3F7FFFFE#32)
        (FloatOps.maximumf (FloatOps.ofBits .f32 0x34000000#32) (FloatOps.subf (FloatOps.ofBits .f32 0x3F800000#32) p))))))

end Cert.Spec

end
-- ==== Proof.BlockTotal.lean ====
/-
  The block total of one grid point of the first pipeline: the kernel's per-element term summed over the point's
  [1024, 1024] blocks of probabilities and labels.
-/
import proofs.«118291_j87479893885401_2_alg».proof.Proof.Gen.KernelIdeal.Frame
import proofs.«118291_j87479893885401_2_alg».proof.Proof.Spec

noncomputable section

open Idealize.ShloMosaic Idealize.ShloMosaic.TcCoe Idealize.SL.Sem

namespace Cert.KernelIdeal.Bridge

open Cert.KernelIdeal Cert.KernelIdeal.Gen

/-- The sum, over the [1024, 1024] blocks that the probability window and the label window hold at grid point `t`,
    of the kernel's per-element term: what the body adds to its output block at that point. -/
def tot (V : (c : Dev nD) → (b : Ref sig .tc) → Buf (Elt Ideal) ((c : Thread nD τ).loc b)) (c : Dev nD) (t : Fin cfg0.N) : EReal :=
  ∑ q : S1024x1024.Idx, Cert.Spec.nllK ((iblk0 V c 0 t : Vec Ideal S1024x1024 .f32) q) ((iblk0 V c 1 t : Vec Ideal S1024x1024 .f32) q)

end Cert.KernelIdeal.Bridge

end
-- ==== Proof.Payload.lean ====
/-
  The two store payloads of the first kernel body over the extended reals: the zero block, and the accumulator plus the
  total of the per-element term over the point's [1024, 1024] tile at every entry.
-/
import proofs.«118291_j87479893885401_2_alg».proof.Proof.Gen.KernelIdeal.Skeleton
import proofs.«118291_j87479893885401_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Bridge

open Cert.KernelIdeal Cert.KernelIdeal.Gen
open Idealize.ShloMosaic.ValueIdx

/-- The block the first grid step stores is the splat of the f32 word `0x00000000`, which denotes the extended
    real `0`, so it reads `0` at every index. -/
theorem pay1_eq (j : S8x128.Idx) : k0_pay1 (F := Ideal) j = (0 : EReal) := by
  unfold k0_pay1
  show Ideal.ofBits .f32 0x00000000#32 = 0
  exact Ideal.ofBits_zero_f32

/-- The reduction chain of the accumulating store, for an arbitrary `[1024, 1024]` block `v`: summing `v` over its rows
    (to `[1024]`), viewing the result as `[1, 1024]`, summing that over its columns (to `[1]`), viewing the one number
    as `[1, 1]` and broadcasting it over `[8, 128]` adds, at every index `j`, the TOTAL of `v` to the accumulator.

    The broadcast and the `[1] → [1, 1]` view read the one entry of the outer reduction. That reduction's target has only
    unit axes, so it is the sum over every index `(u, c)` of `[1, 1024]`, `u` ranging over the one-point `Fin 1`; the
    `[1024] → [1, 1024]` view reads the inner reduction at `c`, which is `∑ r, v (r, c)`. The resulting
    `∑ c, ∑ r, v (r, c)` is `∑ r, ∑ c, v (r, c)` (sums over finite sets commute in a commutative monoid), i.e. the sum
    of `v` over all index pairs. No finiteness of the entries is used. -/
theorem pay2_reduction_total (v : FVec Ideal S1024x1024 .f32) (acc : FVec Ideal S8x128 .f32)
    (hr0 : S1024x1024.Reduces [0] S1024) (hc1 : S1024.ShapeCasts S1x1024) (hr1 : S1x1024.Reduces [1] S1)
    (hc2 : S1.ShapeCasts S1x1) (hb : S1x1.Broadcasts S8x128)
    (hφ : FKind.Formats .f32) (hacc : (0x00000000#32 : BitVec 32) = FKind.add.neutral .f32 hφ) (j : S8x128.Idx) :
    addf acc (broadcastTo S8x128 (shapeCast S1x1 (multiReduction (F := Ideal) .add [1] S1
      (shapeCast S1x1024 (multiReduction (F := Ideal) .add [0] S1024 v 0x00000000#32 hr0 hφ hacc) hc1)
      0x00000000#32 hr1 hφ hacc) hc2) hb) j = acc j + ∑ q : S1024x1024.Idx, v q := by
  rw [addf_apply]
  congr 1
  -- the broadcast of a `[1, 1]` array reads its one entry `(0, 0)` everywhere
  refine (broadcastTo_apply _ hb j (ix2 (0 : Fin 1) (0 : Fin 1)) (fun a => ?_)).trans ?_
  · match a with
    | ⟨0, _⟩ => rfl
    | ⟨1, _⟩ => rfl
  -- the `[1] → [1, 1]` view reads the entry `0`
  refine (shapeCast_a_1a_apply _ hc2 (0 : Fin 1) (0 : Fin 1)).trans ?_
  -- a sum into a shape of unit axes is the sum over every source index
  refine (Ideal.multiReduction_add_total _ _ hr1 (fun b => ?_) hφ hacc _).trans ?_
  · match b with
    | ⟨0, _⟩ => rfl
  -- both sides as double sums over coordinates; the `Fin 1` sum has one term; exchange the order on the right
  rw [sum_idx2, Fin.sum_univ_one, sum_idx2 v, Finset.sum_comm]
  refine Finset.sum_congr rfl fun c _ => ?_
  -- column `c`: the `[1024] → [1, 1024]` view reads the inner reduction at `c`, the sum over the rows `r` of `v (r, c)`
  refine (shapeCast_a_1a_apply _ hc1 (0 : Fin 1) c).trans ?_
  refine (Ideal.multiReduction_add_single v _ hr0 hφ hacc (ix1 c)).trans ?_
  refine Finset.sum_congr rfl fun r _ => congrArg v ?_
  -- the reduced index `c` with the row coordinate `r` inserted on axis 0 is `(r, c)`
  funext a
  apply Fin.ext
  match a with
  | ⟨0, _⟩ => rfl
  | ⟨1, _⟩ => rfl

/-- The block every grid step stores back: the accumulator plus, at every index, the sum over the whole
    `[1024, 1024]` tile of the per-element term `nllK p y = (0 - w) * log (clip q)`. -/
theorem pay2_eq (x0 x1 : Vec Ideal S1024x1024 .f32) (acc : Vec Ideal S8x128 .f32) (j : S8x128.Idx) :
    k0_pay2 (F := Ideal) x0 x1 acc j = acc j + ∑ q : S1024x1024.Idx, Cert.Spec.nllK (x0 q) (x1 q) := by
  unfold k0_pay2
  -- the shape casts to the same shape are the identity
  simp only [shapeCast_self]
  -- the reduction chain adds the total of the pointwise block to the accumulator …
  refine (pay2_reduction_total _ acc _ _ _ _ _ _ _ j).trans ?_
  -- … and the pointwise block at `q` is `nllK (x0 q) (x1 q)` by unfolding: every vector operation acts elementwise
  rfl

end Cert.KernelIdeal.Bridge

end
-- ==== Proof.Accumulate.lean ====
/-
  What the first pipeline leaves in its [16, 128] output array.

  The grid has eight points, four per core; the output window's block is rows 8·core … 8·core + 7. At the first point of
  a core's run the body zeroes its output block, and at every point it adds the point's block total to every entry of
  the block; the block is written back after the last point of each core's run. So every entry of row r ends holding
  the sum of the block totals of the four points of core r / 8.
-/
import proofs.«118291_j87479893885401_2_alg».proof.Proof.Gen.KernelIdeal.Frame
import proofs.«118291_j87479893885401_2_alg».proof.Proof.BlockTotal
import proofs.«118291_j87479893885401_2_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Bridge

open Cert.KernelIdeal Cert.KernelIdeal.Gen

namespace Accumulate

theorem hz : (![0, 0] : Fin 2 → Nat) = fun _ => 0 := funext fun a => by fin_cases a <;> rfl

/-- Away from the first point of a core's run the body leaves, in the output block holding `xo`, the one covering
    store's payload: `xo` with the point's block total added to every entry. -/
theorem out_B {F : FTy → Type} [FloatOps F] (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S8x128 .f32) (h4 : a4.IsWhole) (hc : ¬cond0_0 i)
    (x0 x1 : Vec F S1024x1024 .f32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread,
    View.ld_unit_zero (S := S1024x1024) hz, View.ld_unit_zero (S := S8x128) hz]

/-- At the first point of a core's run the body stores the zero block, reads it back, and leaves the covering store's
    payload over it: the zero block with the point's block total added to every entry. The read-back is the run's own
    intermediate, a covered load of the first store. -/
theorem out_A {F : FTy → Type} [FloatOps F] (c : Dev nD) (i : grid0.Coords)
    (a2 : Memref sig .tc .vmem S1024x1024 .f32) (h2 : a2.IsWhole) (a3 : Memref sig .tc .vmem S1024x1024 .f32) (h3 : a3.IsWhole)
    (a4 : Memref sig .tc .vmem S8x128 .f32) (h4 : a4.IsWhole) (hc : cond0_0 i)
    (x0 x1 : Vec F S1024x1024 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S1024x1024) hz]

section Ideal

variable (V : (c : Dev nD) → (b : Ref sig .tc) → Buf (Elt Ideal) ((c : Thread nD τ).loc b)) (c : Dev nD)

/-- A point that starts a core's run (`t ≡ 0 mod 4`) leaves its own block total in every entry. -/
theorem outsAt_first (t : Fin cfg0.N) (h0 : t.val % 4 = 0) (j : S8x128.Idx) :
    (outsAt0 V c t.val t.isLt : Vec Ideal S8x128 .f32) j = tot V c t := by
  rw [outsAt0_A V c t h0,
    out_A c (grid0.coords t) (ms0_0 t) (hs0_0 t) (ms0_1 t) (hs0_1 t) (ms0_2 t) (hs0_2 t) ((hcond0_0 t).mpr h0)
      (iblk0 V c 0 t) (iblk0 V c 1 t),
    pay2_eq, pay1_eq, zero_add]
  rfl

/-- Every other point adds its block total to what the point before left. -/
theorem outsAt_next (t : Fin cfg0.N) (h0 : ¬t.val % 4 = 0) (j : S8x128.Idx) :
    (outsAt0 V c t.val t.isLt : Vec Ideal S8x128 .f32) j
      = (outsAt0 V c (t.val - 1) (Nat.lt_of_le_of_lt (Nat.sub_le _ _) t.isLt) : Vec Ideal S8x128 .f32) j + tot V c t := by
  rw [outsAt0_B V c t h0,
    out_B c (grid0.coords t) (ms0_0 t) (hs0_0 t) (ms0_1 t) (hs0_1 t) (ms0_2 t) (hs0_2 t) (fun h => h0 ((hcond0_0 t).mp h))
      (iblk0 V c 0 t) (iblk0 V c 1 t) (outsAt0 V c (t.val - 1) (Nat.lt_of_le_of_lt (Nat.sub_le _ _) t.isLt)),
    pay2_eq]
  rfl

/-- THE RUNNING SUM. After point `n` every entry of the output block holds the block totals of the points of `n`'s
    core up to `n`: by induction on the point, a run restarting at each multiple of 4. -/
theorem outsAt_eq : ∀ (n : ℕ) (h : n < cfg0.N) (j : S8x128.Idx),
    (outsAt0 V c n h : Vec Ideal S8x128 .f32) j
      = ∑ t ∈ Finset.univ.filter (fun t : Fin cfg0.N => t.val / 4 = n / 4 ∧ t.val ≤ n), tot V c t := by
  intro n
  induction n using Nat.strong_induction_on with
  | _ n ih =>
    intro h j
    by_cases h0 : n % 4 = 0
    · rw [outsAt_first V c ⟨n, h⟩ h0 j]
      have hs : Finset.univ.filter (fun t : Fin cfg0.N => t.val / 4 = n / 4 ∧ t.val ≤ n) = {⟨n, h⟩} := by
        ext t
        simp only [Finset.mem_filter, Finset.mem_univ, true_and, Finset.mem_singleton, Fin.ext_iff]
        omega
      rw [hs, Finset.sum_singleton]
    · rw [outsAt_next V c ⟨n, h⟩ h0 j]
      have hs : Finset.univ.filter (fun t : Fin cfg0.N => t.val / 4 = n / 4 ∧ t.val ≤ n)
          = insert (⟨n, h⟩ : Fin cfg0.N) (Finset.univ.filter (fun t : Fin cfg0.N => t.val / 4 = (n - 1) / 4 ∧ t.val ≤ n - 1)) := by
        ext t
        simp only [Finset.mem_filter, Finset.mem_univ, true_and, Finset.mem_insert, Fin.ext_iff]
        omega
      have hni : (⟨n, h⟩ : Fin cfg0.N) ∉ Finset.univ.filter (fun t : Fin cfg0.N => t.val / 4 = (n - 1) / 4 ∧ t.val ≤ n - 1) := by
        simp only [Finset.mem_filter, Finset.mem_univ, true_and]
        omega
      rw [hs, Finset.sum_insert hni, add_comm]
      exact congrArg (tot V c ⟨n, h⟩ + ·) (ih (n - 1) (by omega) _ j)

/-- The array the run leaves: at row `r` the block totals of the points of core `r / 8`. -/
def G : Vec Ideal S16x128 .f32 :=
  fun j => ∑ t ∈ Finset.univ.filter (fun t : Fin cfg0.N => t.val / 4 = (j 0).val / 8), tot V c t

/-- What a write-back writes is its block of `G`: the write-backs are at the last point of each core's run
    (`t ≡ 3 mod 4`), where the running sum is the whole run's, and the block's rows `8·(t / 4) + r` are that core's. -/
theorem flushed_eq (t : Fin cfg0.N) (hf : (cfg0.win 2).flush t = true) :
    (dat0 V c).flushed 2 t = ((cfg0.win 2).blk t).view.read (Elt Ideal) (G V c) := by
  have hN : cfg0.N = 8 := N_0
  have ht : t.val < 8 := lt_of_lt_of_eq t.isLt hN
  have h3 : t.val % 4 = 3 := (flush0_2 t).mp hf
  have hidx : win0_2.index t 0 = t.val / 4 := by
    rcases fin_N0 t with rfl | rfl | rfl | rfl | rfl | rfl | rfl | rfl <;> decide
  show (cfg0.win 2).cut (grid0.coords t) ((dat0 V c).after 2 t) = _
  rw [after0_2]
  funext y
  rw [View.read_apply]
  show (outsAt0 V c t.val t.isLt : Vec Ideal S8x128 .f32) _ = G V c (((cfg0.win 2).blk t).view.emb y)
  rw [outsAt_eq]
  unfold G
  have hy8 : (y 0).val < 8 := (y 0).isLt
  have hrow : ((((cfg0.win 2).blk t).view.emb y) 0 : Nat) = win0_2.index t 0 * 8 + (y 0).val :=
    Pipeline.Window.rect_emb_val win0_2 t y 0
  refine Finset.sum_congr ?_ fun _ _ => rfl
  ext t'
  have ht' : t'.val < 8 := lt_of_lt_of_eq t'.isLt hN
  simp only [Finset.mem_filter, Finset.mem_univ, true_and]
  rw [hrow, hidx]
  omega

/-- The two write-backs cover the array: rows 0–7 are point 3's block, rows 8–15 point 7's. -/
theorem cover0 (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 16 := (i 0).isLt
  have h1 : (i 1 : Nat) < 128 := (i 1).isLt
  by_cases hr : (i 0 : Nat) < 8
  · refine ⟨t0_3, (flush0_2 t0_3).mpr rfl, ?_⟩
    show i ∈ ((View.whole main_v2).slice (win0_2.rect t0_3)).set
    rw [View.set_slice_whole, Rect.mem_set_unit]
    intro a
    match a with
    | ⟨0, _⟩ =>
      show win0_2.index t0_3 0 * win0_2.size 0 ≤ (i 0 : Nat)
        ∧ (i 0 : Nat) < win0_2.index t0_3 0 * win0_2.size 0 + win0_2.xsize (grid0.coords t0_3) 0
      rw [show win0_2.index t0_3 0 * win0_2.size 0 = 0 from by decide +kernel,
        show win0_2.xsize (grid0.coords t0_3) 0 = 8 from by decide +kernel]
      omega
    | ⟨1, _⟩ =>
      show win0_2.index t0_3 1 * win0_2.size 1 ≤ (i 1 : Nat)
        ∧ (i 1 : Nat) < win0_2.index t0_3 1 * win0_2.size 1 + win0_2.xsize (grid0.coords t0_3) 1
      rw [show win0_2.index t0_3 1 * win0_2.size 1 = 0 from by decide +kernel,
        show win0_2.xsize (grid0.coords t0_3) 1 = 128 from by decide +kernel]
      omega
  · refine ⟨t0_7, (flush0_2 t0_7).mpr rfl, ?_⟩
    show i ∈ ((View.whole main_v2).slice (win0_2.rect t0_7)).set
    rw [View.set_slice_whole, Rect.mem_set_unit]
    intro a
    match a with
    | ⟨0, _⟩ =>
      show win0_2.index t0_7 0 * win0_2.size 0 ≤ (i 0 : Nat)
        ∧ (i 0 : Nat) < win0_2.index t0_7 0 * win0_2.size 0 + win0_2.xsize (grid0.coords t0_7) 0
      rw [show win0_2.index t0_7 0 * win0_2.size 0 = 8 from by decide +kernel,
        show win0_2.xsize (grid0.coords t0_7) 0 = 8 from by decide +kernel]
      omega
    | ⟨1, _⟩ =>
      show win0_2.index t0_7 1 * win0_2.size 1 ≤ (i 1 : Nat)
        ∧ (i 1 : Nat) < win0_2.index t0_7 1 * win0_2.size 1 + win0_2.xsize (grid0.coords t0_7) 1
      rw [show win0_2.index t0_7 1 * win0_2.size 1 = 0 from by decide +kernel,
        show win0_2.xsize (grid0.coords t0_7) 1 = 128 from by decide +kernel]
      omega

end Ideal

end Accumulate

open Accumulate

/-- After the run every entry of row `r` of the first pipeline's output array holds the sum of the block totals of the
    grid points of core `r / 8`. -/
theorem arr0_eq (V : (c : Dev nD) → (b : Ref sig .tc) → Buf (Elt Ideal) ((c : Thread nD τ).loc b)) (c : Dev nD) (j : S16x128.Idx) :
    ((dat0 V c).arrAt 2 cfg0.N : Vec Ideal S16x128 .f32) j
      = ∑ t ∈ Finset.univ.filter (fun t : Fin cfg0.N => t.val / 4 = (j 0).val / 8), tot V c t := by
  have key : (dat0 V c).arrAt 2 cfg0.N = G V c :=
    (dat0 V c).arrAt_eq_of_cover 2 (G V c) (flushed_eq V c) (cover0 c)
  rw [key]
  rfl

end Cert.KernelIdeal.Bridge

end
-- ==== Proof.Reindex.lean ====
/-
  The eight block totals add up to the sum over all 8388608 elements.

  The probability array p and the label array y, both f32[8388608], are reshaped on the host to [8192, 1024] before
  the first region. The region's grid has eight points; at point t the two input windows hold rows
  1024·t … 1024·t + 1023 of the reshaped arrays, so the element at (q₀, q₁) of the block at point t is the flat
  element 1024·(1024·t + q₀) + q₁ of the launch array. The map (t, q₀, q₁) ↦ 1024·(1024·t + q₀) + q₁ is a bijection
  from 8 × 1024 × 1024 onto the 8388608 flat positions (the digits of the position in the mixed radix
  (8, 1024, 1024)), so the sum of the per-element term over the eight blocks is its sum over the whole array.
  Only the re-indexing of a finite sum is used: nothing about the values of the term.
-/
import proofs.«118291_j87479893885401_2_alg».proof.Proof.Gen.KernelIdeal.Frame
import proofs.«118291_j87479893885401_2_alg».proof.Proof.BlockTotal
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.ValueIdx

namespace Cert.KernelIdeal.Bridge

open Cert.KernelIdeal Cert.KernelIdeal.Gen

/-! ## The region-entry arrays are the host reshapes of the launch arrays -/

/-- On entry to the first region the probability array is the launch array reshaped to [8192, 1024]. -/
theorem V1_v0 (m : (ℓ : Loc nD τ sig) → Buf (Elt Ideal) ℓ) (ρ : Dev nD → PrngReg) (c : Dev nD) :
    (V1 m ρ c main_v0 : S8192x1024.Idx → EReal)
      = shapeCast S8192x1024 (m ((c.tc : Thread nD τ).loc main_arg0)) shapeCasts_S8388608_S8192x1024 := by
  show StableHlo.after hostOps0 (W0 m ρ c) (Proc.devRef .tc main_v0) = _
  after_results
  rfl

/-- On entry to the first region the label array is the launch array reshaped to [8192, 1024]. -/
theorem V1_v1 (m : (ℓ : Loc nD τ sig) → Buf (Elt Ideal) ℓ) (ρ : Dev nD → PrngReg) (c : Dev nD) :
    (V1 m ρ c main_v1 : S8192x1024.Idx → EReal)
      = shapeCast S8192x1024 (m ((c.tc : Thread nD τ).loc main_arg1)) shapeCasts_S8388608_S8192x1024 := by
  show StableHlo.after hostOps0 (W0 m ρ c) (Proc.devRef .tc main_v1) = _
  after_results
  rfl

/-! ## A reshaped array read at (row, column) -/

/-- The reshape [8388608] → [8192, 1024] read at (r, col) is the flat element 1024·r + col: both have the same
    row-major position. -/
theorem reshape_read {α : Type} (x : S8388608.Idx → α) (j : S8192x1024.Idx) (k : S8388608.Idx)
    (hk : (k 0).val = 1024 * (j 0).val + (j 1).val) :
    shapeCast S8192x1024 x shapeCasts_S8388608_S8192x1024 j = x k :=
  shapeCast_apply x _ j k (by
    rw [Shape.rowMajor_val_one, Shape.rowMajor_val_two]
    show (k 0).val = (j 0).val * 1024 + (j 1).val
    omega)

/-! ## A window's block read at an index inside the block -/

/-- The probability window's index map at grid point t is (t, 0): decided over the eight points. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The label window's index map at grid point t is (t, 0): decided over the eight points. -/
theorem idx1 : ∀ t : Fin cfg0.N, win0_1.index t 0 = t.val ∧ win0_1.index t 1 = 0 :=
  (by decide +kernel : ∀ t : Fin grid0.N, win0_1.index t 0 = t.val ∧ win0_1.index t 1 = 0)

/-- The probability window's block at point t, read at q inside the block, is the array at row 1024·t + q₀ and
    column q₁: a block's coordinate is index × size + 1 × the coordinate inside the block. -/
theorem blk0_read (c : Dev nD) (A : Buf (Elt Ideal) ((c : Thread nD τ).loc main_v0)) (t : Fin cfg0.N)
    (q : S1024x1024.Idx) (j : S8192x1024.Idx)
    (h0 : (j 0).val = 1024 * t.val + (q 0).val) (h1 : (j 1).val = (q 1).val) :
    (((cfg0.win 0).blk t).view.read (Elt Ideal) A : Vec Ideal S1024x1024 .f32) q = (A : S8192x1024.Idx → EReal) j := by
  have hi := idx0 t
  rw [View.read_apply]
  show A _ = A j
  congr 1
  funext a
  apply Fin.ext
  match a with
  | ⟨0, _⟩ => show win0_0.index t 0 * 1024 + 1 * (q 0).val = (j 0).val; rw [hi.1]; omega
  | ⟨1, _⟩ => show win0_0.index t 1 * 1024 + 1 * (q 1).val = (j 1).val; rw [hi.2]; omega

/-- The label window's block at point t, read at q inside the block, is the array at row 1024·t + q₀ and
    column q₁. -/
theorem blk1_read (c : Dev nD) (A : Buf (Elt Ideal) ((c : Thread nD τ).loc main_v1)) (t : Fin cfg0.N)
    (q : S1024x1024.Idx) (j : S8192x1024.Idx)
    (h0 : (j 0).val = 1024 * t.val + (q 0).val) (h1 : (j 1).val = (q 1).val) :
    (((cfg0.win 1).blk t).view.read (Elt Ideal) A : Vec Ideal S1024x1024 .f32) q = (A : S8192x1024.Idx → EReal) j := by
  have hi := idx1 t
  rw [View.read_apply]
  show A _ = A j
  congr 1
  funext a
  apply Fin.ext
  match a with
  | ⟨0, _⟩ => show win0_1.index t 0 * 1024 + 1 * (q 0).val = (j 0).val; rw [hi.1]; omega
  | ⟨1, _⟩ => show win0_1.index t 1 * 1024 + 1 * (q 1).val = (j 1).val; rw [hi.2]; omega

/-- The row of the [8192, 1024] array that block t holds at row q₀ of the block, with the column q₁. -/
def rowcol (t : Fin cfg0.N) (q : S1024x1024.Idx) : S8192x1024.Idx :=
  ix2 (⟨1024 * t.val + (q 0).val, by
        have ht : t.val < 8 := lt_of_lt_of_eq t.isLt (show cfg0.N = 8 from N_0)
        have hq : ((q 0 : Fin _) : ℕ) < 1024 := (q 0).isLt
        show 1024 * t.val + (q 0).val < 8192
        omega⟩ : Fin 8192) (⟨(q 1).val, (q 1).isLt⟩ : Fin 1024)

/-- The probability block of point t at q is the launch array's flat element 1024·(1024·t + q₀) + q₁. -/
theorem iblk0_0_elt (m : (ℓ : Loc nD τ sig) → Buf (Elt Ideal) ℓ) (ρ : Dev nD → PrngReg) (c : Dev nD)
    (t : Fin cfg0.N) (q : S1024x1024.Idx) (k : S8388608.Idx)
    (hk : (k 0).val = 1024 * (1024 * t.val + (q 0).val) + (q 1).val) :
    (iblk0 (V1 m ρ) c 0 t : Vec Ideal S1024x1024 .f32) q = m ((c.tc : Thread nD τ).loc main_arg0) k := by
  show (((cfg0.win 0).blk t).view.read (Elt Ideal) (V1 m ρ c main_v0) : Vec Ideal S1024x1024 .f32) q = _
  rw [blk0_read c _ t q (rowcol t q) rfl rfl, V1_v0]
  exact reshape_read _ _ k hk

/-- The label block of point t at q is the launch array's flat element 1024·(1024·t + q₀) + q₁. -/
theorem iblk0_1_elt (m : (ℓ : Loc nD τ sig) → Buf (Elt Ideal) ℓ) (ρ : Dev nD → PrngReg) (c : Dev nD)
    (t : Fin cfg0.N) (q : S1024x1024.Idx) (k : S8388608.Idx)
    (hk : (k 0).val = 1024 * (1024 * t.val + (q 0).val) + (q 1).val) :
    (iblk0 (V1 m ρ) c 1 t : Vec Ideal S1024x1024 .f32) q = m ((c.tc : Thread nD τ).loc main_arg1) k := by
  show (((cfg0.win 1).blk t).view.read (Elt Ideal) (V1 m ρ c main_v1) : Vec Ideal S1024x1024 .f32) q = _
  rw [blk1_read c _ t q (rowcol t q) rfl rfl, V1_v1]
  exact reshape_read _ _ k hk

/-! ## Re-indexing the sum: eight blocks of [1024, 1024] are the 8388608 flat elements -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the positions below T·R·C is the triple sum over the three digits (t, a, b) of the position
    C·(R·t + a) + b. -/
theorem sum_fin_three {M : Type*} [AddCommMonoid M] {T R C : ℕ} (f : Fin (T * R * C) → M) :
    ∑ k, f k = ∑ t : Fin T, ∑ a : Fin R, ∑ b : Fin C, f (finProdFinEquiv (finProdFinEquiv (t, a), b)) := by
  rw [← Equiv.sum_comp finProdFinEquiv f, Fintype.sum_prod_type,
    ← Equiv.sum_comp finProdFinEquiv (fun i => ∑ b, f (finProdFinEquiv (i, b))), Fintype.sum_prod_type]

/-- The eight block totals add up to the sum of the per-element term over all 8388608 elements of the launch arrays. -/
theorem tot_sum (m : (ℓ : Loc nD τ sig) → Buf (Elt Ideal) ℓ) (ρ : Dev nD → PrngReg) (c : Dev nD) :
    ∑ t : Fin cfg0.N, tot (V1 m ρ) c t
      = ∑ k : S8388608.Idx, Cert.Spec.nllK (m ((c.tc : Thread nD τ).loc main_arg0) k) (m ((c.tc : Thread nD τ).loc main_arg1) k) := by
  have hN : cfg0.N = 8 := N_0
  have h8 : 8 * 1024 * 1024 = 8388608 := by norm_num
  -- the per-element term as a function of the flat index
  let g : S8388608.Idx → EReal := fun k =>
    Cert.Spec.nllK (m ((c.tc : Thread nD τ).loc main_arg0) k) (m ((c.tc : Thread nD τ).loc main_arg1) k)
  -- one element of one block is the term at the flat position 1024·(1024·t + a) + b
  have key : ∀ (t : Fin cfg0.N) (a b : Fin 1024),
      Cert.Spec.nllK ((iblk0 (V1 m ρ) c 0 t : Vec Ideal S1024x1024 .f32) (ix2 a b))
          ((iblk0 (V1 m ρ) c 1 t : Vec Ideal S1024x1024 .f32) (ix2 a b))
        = g (ix1 (Fin.cast h8 (finProdFinEquiv (finProdFinEquiv (Fin.cast hN t, a), b)))) := by
    intro t a b
    have hk : ((ix1 (Fin.cast h8 (finProdFinEquiv (finProdFinEquiv (Fin.cast hN t, a), b))) : S8388608.Idx) 0).val
        = 1024 * (1024 * t.val + ((ix2 a b : S1024x1024.Idx) 0).val) + ((ix2 a b : S1024x1024.Idx) 1).val := by
      show b.val + 1024 * (a.val + 1024 * t.val) = 1024 * (1024 * t.val + a.val) + b.val
      omega
    rw [iblk0_0_elt m ρ c t (ix2 a b) _ hk, iblk0_1_elt m ρ c t (ix2 a b) _ hk]
  calc ∑ t : Fin cfg0.N, tot (V1 m ρ) c t
      = ∑ t : Fin cfg0.N, ∑ a : Fin 1024, ∑ b : Fin 1024,
          g (ix1 (Fin.cast h8 (finProdFinEquiv (finProdFinEquiv (Fin.cast hN t, a), b)))) := by
        refine Finset.sum_congr rfl fun t _ => ?_
        unfold tot
        rw [sum_idx2]
        exact Finset.sum_congr rfl fun a _ => Finset.sum_congr rfl fun b _ => key t a b
    _ = ∑ t : Fin 8, ∑ a : Fin 1024, ∑ b : Fin 1024,
          g (ix1 (Fin.cast h8 (finProdFinEquiv (finProdFinEquiv (t, a), b)))) :=
        Fin.sum_congr' (fun t => ∑ a : Fin 1024, ∑ b : Fin 1024,
          g (ix1 (Fin.cast h8 (finProdFinEquiv (finProdFinEquiv (t, a), b))))) hN
    _ = ∑ n : Fin (8 * 1024 * 1024), g (ix1 (Fin.cast h8 n)) :=
        (sum_fin_three fun n => g (ix1 (Fin.cast h8 n))).symm
    _ = ∑ n : Fin 8388608, g (ix1 n) := Fin.sum_congr' (fun n => g (ix1 n)) h8
    _ = ∑ k, g k := (sum_idx1 g).symm

end Cert.KernelIdeal.Bridge

end
-- ==== Proof.RefReads.lean ====
/-
  Two stages of the reference read over the extended reals: its summed loss is the sum over all elements of its
  per-element term, and its column sums of squares are what the second kernel body stores.
-/
import proofs.«118291_j87479893885401_2_alg».proof.Proof.Gen.ReferenceIdeal.Read
import proofs.«118291_j87479893885401_2_alg».proof.Proof.Gen.KernelIdeal.Skeleton
import proofs.«118291_j87479893885401_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.ReferenceIdeal.Bridge

open Cert.ReferenceIdeal Cert.ReferenceIdeal.Gen Cert.ReferenceIdeal.Read

/-- The reference's summed loss is the sum over all elements of its per-element term (the reduction's initial value
    is zero). -/
theorem refsum_eq (x0 x1 : FVec Ideal S8388608 .f32) (i : S_.Idx) :
    val_main_v16 (F := Ideal) x0 x1 i = ∑ k : S8388608.Idx, Cert.Spec.nllR (x0 k) (x1 k) := by
  rw [val_main_v16_apply, val_main_cst_7_apply]
  show Ideal.ofBits .f32 0x00000000#32 + _ = _
  rw [Ideal.ofBits_zero_f32, zero_add]
  refine Finset.sum_congr rfl fun k _ => ?_
  rw [val_main_v15_apply, val_main_v14_apply, val_main_v8_apply, val_main_v13_apply,
    val_main_v7_apply, val_main_v1_apply, val_main_v12_apply, val_main_v5_apply,
    val_main_v6_apply, val_main_cst_4_apply, val_main_v0_apply, val_main_v11_apply,
    val_main_cst_6_apply, val_main_v10_apply, val_main_v9_apply, val_main_cst_5_apply,
    val_main_v4_apply, val_main_call0_v4_apply, val_main_call0_v3_apply, val_main_cst_0_apply,
    val_main_call0_v2_apply, val_main_call0_v1_apply, val_main_call0_v0_apply, val_main_cst_apply,
    val_main_call1_v4_apply, val_main_call1_v3_apply, val_main_cst_3_apply,
    val_main_call1_v2_apply, val_main_call1_v1_apply, val_main_call1_v0_apply, val_main_cst_2_apply,
    val_main_v3_apply, val_main_v2_apply, val_main_cst_1_apply]
  rfl

/-- The second kernel body's payload, viewed as [2048], is the reference's column sums of squares: both are, at
    column `j`, the sum over the rows `r` of `W (r, j) * W (r, j)`. -/
theorem colsum_eq (W : FVec Ideal S1024x2048 .f32) (h : Cert.KernelIdeal.S1x2048.ShapeCasts Cert.KernelIdeal.S2048) :
    shapeCast Cert.KernelIdeal.S2048 (Cert.KernelIdeal.Gen.k1_pay1 (F := Ideal) W) h = val_main_v19 (F := Ideal) W := by
  unfold Cert.KernelIdeal.Gen.k1_pay1
  rw [shapeCast_shapeCast]
  funext i
  refine (Ideal.multiReduction_add_single (φ := .f32) (mulf W W) _
    Cert.KernelIdeal.Gen.reduces_S1024x2048_S2048 _ _ i).trans ?_
  rw [val_main_v19_apply, val_main_cst_9_apply]
  show _ = Ideal.ofBits .f32 0x00000000#32 + _
  rw [Ideal.ofBits_zero_f32, zero_add]
  refine Finset.sum_congr rfl fun k _ => ?_
  rw [val_main_v18_apply]
  have e : Cert.KernelIdeal.Gen.reduces_S1024x2048_S2048.lift i k = idx_main_v19 i k :=
    funext fun a => Fin.ext (by match a with | ⟨0, _⟩ => rfl | ⟨1, _⟩ => rfl)
  rw [← e]
  rfl

end Cert.ReferenceIdeal.Bridge

end
-- ==== Proof.SegmentSum.lean ====
/-
  The reference's segment sum is a row sum.

  The reference adds each of the 1024 lower column norms into one of 64 groups by an accumulating scatter whose ids are
  `j / 16` (an iota over 64 broadcast along 16 and flattened). Over the extended reals that scatter gives group i the
  initial zero plus the sum of the updates whose id is i, i.e. of the sixteen updates 16 i … 16 i + 15 — which is the sum
  over the second axis of the updates laid out as [64, 16], from the same zero.
-/
import proofs.«118291_j87479893885401_2_alg».proof.Proof.Gen.ReferenceIdeal.Read
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.ReferenceIdeal.Bridge

open Cert.ReferenceIdeal Cert.ReferenceIdeal.Gen Cert.ReferenceIdeal.Read

/-- The segment id the scatter reads for update `j`: the 32-bit word of `j / 16`. -/
theorem segsum_idx_read (j : S1024.Idx) (i : S1024x1.Idx) (hi : (i 0).val = (j 0).val) :
    val_main_v26 (F := Ideal) i = BitVec.ofNat 32 ((j 0).val / 16) := by
  rw [val_main_v26_apply, val_main_v23_apply, val_main_v22_apply, val_main_v21_apply]
  show BitVec.ofNat 32 ((i 0).val / 16) = _
  rw [hi]

/-- The start of update `j`'s (one-element) window on the operand's only axis is `j / 16`: the id is
    below 64, so its signed reading is the number itself. -/
theorem segsum_start_eq (j : S1024.Idx) (a : Fin S64.rank) :
    scatter_S64_S1024x1_S1024_n_0_0_1.start j (val_main_v26 (F := Ideal)) a = (((j 0).val / 16 : Nat) : Int) := by
  have ha : a ∈ scatter_S64_S1024x1_S1024_n_0_0_1.scatterDimsToOperandDims := by
    show a ∈ [(0 : Fin 1)]
    simp; exact Subsingleton.elim _ _
  unfold ScatterDims.start
  rw [dif_pos ha]
  rw [segsum_idx_read j]
  · have h0 : (j 0).val < 1024 := (j 0).isLt
    rw [BitVec.toInt_eq_toNat_of_lt]
    · rw [BitVec.toNat_ofNat]; congr 1; omega
    · rw [BitVec.toNat_ofNat]; omega
  · unfold ScatterDims.siIdx
    rw [dif_neg (by decide)]
    unfold ScatterDims.siCoord
    show (j _).val = (j 0).val
    exact congrArg (fun x => (j x).val) (Subsingleton.elim _ _)

/-- The operand's only axis is an inserted window axis: the window coordinate on it is 0. -/
theorem segsum_window_eq (j : S1024.Idx) (a : Fin S64.rank) :
    scatter_S64_S1024x1_S1024_n_0_0_1.window j a = 0 := by
  unfold ScatterDims.window
  rw [dif_neg]
  show a ∉ S64.kept [(0 : Fin 1)]
  have : S64.kept [(0 : Fin 1)] = [] := by decide
  rw [this]
  exact List.not_mem_nil

/-- The group of update `j`: the index of the result with coordinate `j / 16`. -/
def segsumGrp (j : S1024.Idx) : S64.Idx := fun a => match a with
  | ⟨0, _⟩ => ⟨(j 0).val / 16, by
      have h0 : (j 0).val < 1024 := (j 0).isLt
      show (j 0).val / 16 < 64
      omega⟩

/-- Every update lands inside the operand, at its group. -/
theorem segsum_resultIdx_eq (j : S1024.Idx) :
    scatter_S64_S1024x1_S1024_n_0_0_1.resultIdx? j (val_main_v26 (F := Ideal)) = some (segsumGrp j) := by
  have h0 : (j 0).val < 1024 := (j 0).isLt
  unfold ScatterDims.resultIdx?
  rw [dif_pos]
  · refine congrArg some (funext fun a => Fin.ext ?_)
    show (scatter_S64_S1024x1_S1024_n_0_0_1.start j (val_main_v26 (F := Ideal)) a + scatter_S64_S1024x1_S1024_n_0_0_1.window j a : Int).toNat = (segsumGrp j a).val
    rw [segsum_start_eq, segsum_window_eq]
    match a with
    | ⟨0, _⟩ => show ((((j 0).val / 16 : Nat) : Int) + ((0 : Nat) : Int)).toNat = (j 0).val / 16; omega
  · intro a
    rw [segsum_start_eq, segsum_window_eq]
    match a with
    | ⟨0, _⟩ => show 0 ≤ (((j 0).val / 16 : Nat) : Int) + ((0 : Nat) : Int) ∧ (((j 0).val / 16 : Nat) : Int) + ((0 : Nat) : Int) < ((64 : Nat) : Int); omega

/-- Member `k` of group `i`: the index of the updates with coordinate `16 i + k`. -/
def segsumMem (i : S64.Idx) (k : Fin 16) : S1024.Idx := fun a => match a with
  | ⟨0, _⟩ => ⟨(i 0).val * 16 + k.val, by
      have h0 : (i 0).val < 64 := (i 0).isLt
      have h1 : k.val < 16 := k.isLt
      show (i 0).val * 16 + k.val < 1024
      omega⟩

/-- Member `k` of group `i` lies in group `i`. -/
theorem segsumGrp_mem (i : S64.Idx) (k : Fin 16) : segsumGrp (segsumMem i k) = i := by
  funext a
  match a with
  | ⟨0, _⟩ =>
    apply Fin.ext
    have h1 : k.val < 16 := k.isLt
    show ((i 0).val * 16 + k.val) / 16 = (i 0).val
    omega

/-- The accumulating scatter with the ids `j / 16` into a zero [64] is the sum over the second axis of the updates
    laid out as [64, 16], from a zero initial value. -/
theorem segsum_eq (u : FVec Ideal S1024 .f32) (h1 : S1024.ShapeCasts S64x16) (h2 : S64x16.ReducesTo [1] S64) (h3 : 0 < S_.numel) :
    Host.scatterAdd scatter_S64_S1024x1_S1024_n_0_0_1 (val_main_v25 (F := Ideal)) (val_main_v26 (F := Ideal)) u
      = Host.reduceAdd (shapeCast S64x16 u h1) (constant S_ .f32 0x00000000#32) h2 h3 := by
  funext i
  have hR : S64x16.Reduces [1] S64 := by decide
  simp only [Host.scatterAdd, Host.reduceAdd, Ideal.hostScatterAdd_def, Ideal.hostReduceAdd_def]
  rw [Ideal.hostReduceAdd_single h2 hR]
  unfold Ideal.hostScatterAdd
  simp only [segsum_resultIdx_eq]
  refine congrArg₂ (· + ·) ?_ ?_
  · rw [val_main_v25_apply]; rfl
  · -- each element of the reshaped row is the update at 16 i + k
    have hcast : ∀ k : Fin 16, shapeCast S64x16 u h1 (hR.lift i k) = u (segsumMem i k) := fun k =>
      shapeCast_apply u h1 (hR.lift i k) (segsumMem i k) (by
        rw [Shape.rowMajor_val_two, Shape.rowMajor_val_one]
        show (i 0).val * 16 + k.val = (i 0).val * 16 + k.val
        rfl)
    show _ = ∑ k : Fin 16, shapeCast S64x16 u h1 (hR.lift i k)
    simp only [hcast]
    symm
    refine Finset.sum_bij (fun k _ => segsumMem i k) ?_ ?_ ?_ ?_
    · intro k _
      rw [Finset.mem_filter]
      exact ⟨Finset.mem_univ _, congrArg some (segsumGrp_mem i k)⟩
    · intro k1 _ k2 _ h
      have := congrArg (fun x : S1024.Idx => (x 0).val) h
      apply Fin.ext
      have e : (i 0).val * 16 + k1.val = (i 0).val * 16 + k2.val := this
      omega
    · intro x hx
      rw [Finset.mem_filter] at hx
      have hg : segsumGrp x = i := Option.some.inj hx.2
      have h0 : (x 0).val < 1024 := (x 0).isLt
      refine ⟨⟨(x 0).val % 16, Nat.mod_lt _ (by decide)⟩, Finset.mem_univ _, ?_⟩
      funext a
      match a with
      | ⟨0, _⟩ =>
        apply Fin.ext
        have e : (x 0).val / 16 = (i 0).val := congrArg (fun y : S64.Idx => (y 0).val) hg
        show (i 0).val * 16 + (x 0).val % 16 = (x 0).val
        omega
    · intro k _
      rfl

end Cert.ReferenceIdeal.Bridge

end
-- ==== Proof.ScalarLaws.lean ====
/-
  The law that joins the two per-element terms, and the precondition read element by element.

  For a label y that is exactly 0 or exactly 1 and any extended real p, the kernel's `(0 - w) * log (clip q)` — weight and
  argument chosen by `y > 1/2` — is the reference's `-((a * y) * log (clip p) + (b * (1 - y)) * log (clip (1 - p)))`:
  at y = 1 the second product is `(b * 0) * _ = 0` and the first is `a * log (clip p)`; at y = 0 the first vanishes
  and the second is `b * log (clip (1 - p))`; and `(0 - w) * x = -(w * x)`. None of these steps needs a finite value.
  The precondition's last conjunct says, element by element, that the label equals the word 0 or the word 1.
-/
import proofs.«118291_j87479893885401_2_alg».proof.Defs
import proofs.«118291_j87479893885401_2_alg».proof.Proof.Gen.KernelIdeal
import proofs.«118291_j87479893885401_2_alg».proof.Proof.Gen.Pre_finite_inputs
import proofs.«118291_j87479893885401_2_alg».proof.Proof.Spec
import Idealize.ShloMosaic.PureOps.Ideal.Laws
import Idealize.ShloMosaic.Lib.ReduceAll
import Idealize.ShloMosaic.Lib.ValueIdx

noncomputable section

open Idealize.ShloMosaic Idealize.ShloMosaic.TcCoe Idealize.SL.Sem

namespace Cert.Spec

/-- The f32 pattern `0x3F000000` is the real one half. -/
private theorem ofBits_half_f32 : Ideal.ofBits .f32 0x3F000000#32 = (((1 : ℝ) / 2 : ℝ) : EReal) := by
  simp [Ideal.ofBits, Ideal.ieee, -EReal.coe_mul]; norm_num

/-- The f32 pattern `0x3F800000` is the extended real one. -/
private theorem ofBits_one_f32' : Ideal.ofBits .f32 0x3F800000#32 = 1 := by
  rw [show (1 : EReal) = ((1 : ℝ) : EReal) by norm_cast]
  simp [Ideal.ofBits, Ideal.ieee, -EReal.coe_mul]; norm_num

/-- For a label that is exactly 0 or exactly 1 the kernel's per-element term is the reference's. -/
theorem nll_eq (p y : EReal) (hy : y = 0 ∨ y = 1) : nllK p y = nllR p y := by
  unfold nllK nllR
  simp only [Ideal.mulf_def, Ideal.subf_def, Ideal.addf_def, Ideal.hostNegf_def, Ideal.negf_def, Ideal.log_def,
    Ideal.hostUnary_log_def, Ideal.cmpf_def, Ideal.minimumf_def, Ideal.maximumf_def, Ideal.ofBits_def, Scalar.select,
    Ideal.ofBits_zero_f32, ofBits_one_f32', ofBits_half_f32]
  generalize Ideal.ofBits .f32 0x3F333333#32 = a
  generalize Ideal.ofBits .f32 0x3E99999A#32 = b
  generalize Ideal.ofBits .f32 0x34000000#32 = c₀
  generalize Ideal.ofBits .f32 0x3F7FFFFE#32 = c₁
  -- the comparison `y > 1/2` at the two labels
  have h0 : Ideal.cmp .ogt (0 : EReal) (((1 : ℝ) / 2 : ℝ) : EReal) = 0 := by
    have h : ¬ ((((1 : ℝ) / 2 : ℝ) : EReal) < 0) := by
      rw [← EReal.coe_zero, EReal.coe_lt_coe_iff]; norm_num
    show BitVec.ofBool (decide ((((1 : ℝ) / 2 : ℝ) : EReal) < 0)) = 0
    rw [decide_eq_false h]; rfl
  have h1 : Ideal.cmp .ogt (1 : EReal) (((1 : ℝ) / 2 : ℝ) : EReal) = 1 := by
    have h : ((((1 : ℝ) / 2 : ℝ) : EReal) < 1) := by
      rw [← EReal.coe_one, EReal.coe_lt_coe_iff]; norm_num
    show BitVec.ofBool (decide ((((1 : ℝ) / 2 : ℝ) : EReal) < 1)) = 1
    rw [decide_eq_true h]; rfl
  have h11 : (1 : EReal) - 1 = 0 := by
    rw [← EReal.coe_one, ← EReal.coe_sub, sub_self, EReal.coe_zero]
  rcases hy with rfl | rfl
  · -- label 0: the reference's first product vanishes, the second is the kernel's
    rw [h0, if_neg (by decide), if_neg (by decide), mul_zero, zero_mul, zero_add, sub_zero, mul_one, zero_sub,
      EReal.neg_mul]
  · -- label 1: the reference's second product vanishes, the first is the kernel's
    rw [h1, if_pos rfl, if_pos rfl, mul_one, h11, mul_zero, zero_mul, add_zero, zero_sub, EReal.neg_mul]

end Cert.Spec

namespace Cert.KernelIdeal.Bridge

open Cert.KernelIdeal

/-- The comparison `oeq` of two extended reals answers 1 only when they are equal. -/
private theorem cmp_oeq_eq_one {x y : EReal} (h : Ideal.cmp .oeq x y = 1#1) : x = y := by
  by_contra hne
  have h0 : Ideal.cmp .oeq x y = 0#1 := by
    show BitVec.ofBool (decide (x = y)) = 0#1
    rw [decide_eq_false hne]; rfl
  rw [h0] at h
  exact absurd h (by decide)

/-- A rank-0 array has one index. -/
local instance : Subsingleton Cert.Pre_finite_inputs.S_.Idx := ⟨fun a b => funext fun d => d.elim0⟩

/-- Under the precondition every label is exactly 0 or exactly 1. -/
theorem y_binary (m : (ℓ : Loc nD τ sig) → Buf (Elt Ideal) ℓ) (hpre : Cert.Pre_KernelIdeal (hPre_finite_inputs := Cert.Pre_finite_inputs.Gen.facts) m)
    (c : Dev nD) (k : S8388608.Idx) :
    (m ((c.tc : Thread nD τ).loc main_arg1) : FVec Ideal S8388608 .f32) k = (0 : EReal)
      ∨ (m ((c.tc : Thread nD τ).loc main_arg1) : FVec Ideal S8388608 .f32) k = (1 : EReal) := by
  have h := congrFun (hpre c) ValueIdx.ix0
  dsimp only [Cert.Pre_finite_inputs.fn, Cert.Pre_finite_inputs.fn_part1] at h
  obtain ⟨-, h19⟩ := IntOp.andi_eq_one.1 h
  have hk := Host.reduce_andi_all _ _ _ _ _ h19 k
  -- at index `k` one of the two comparisons of the label, with 0 and with 1, answers 1
  rcases IntOp.ori_eq_one.1 hk with h0 | h1
  · left
    have e : (m ((c.tc : Thread nD τ).loc main_arg1) : FVec Ideal S8388608 .f32) k = Ideal.ofBits .f32 0x00000000#32 :=
      cmp_oeq_eq_one h0
    rw [e]; exact Ideal.ofBits_zero_f32
  · right
    have e : (m ((c.tc : Thread nD τ).loc main_arg1) : FVec Ideal S8388608 .f32) k = Ideal.ofBits .f32 0x3F800000#32 :=
      cmp_oeq_eq_one h1
    rw [e]; exact Cert.Spec.ofBits_one_f32'

end Cert.KernelIdeal.Bridge

end
-- ==== Proof.KernelValue.lean ====
/-
  The idealized kernel's result is the reference's result term, for labels that are exactly 0 or 1.

  @main's last host stretch computes, from the averaged loss `v8` and the second pipeline's output `v9`, the value
  `v8 + regulariser (sqrt v9)` with the group sums taken by a reshape to [64, 16] and a sum over the second axis; the
  middle stretch computes `v8 = (out[0, 0] + out[8, 0]) / 2^23` from the first pipeline's [16, 128] output. The first
  pipeline leaves at every entry of its upper (lower) eight rows the sum of the block totals of the first (last) four
  grid points, so the two corners add up to the sum over all elements of the kernel's per-element term, which for a
  label in {0, 1} is the reference's per-element term; the second pipeline leaves the column sums of squares, which are
  the reference's; and summing sixteen consecutive columns by a reshape is what the reference's accumulating scatter
  with the segment ids `j / 16` computes.
-/
import proofs.«118291_j87479893885401_2_alg».proof.Proof.KernelRun
import proofs.«118291_j87479893885401_2_alg».proof.Proof.Tail
import proofs.«118291_j87479893885401_2_alg».proof.Proof.Region1
import proofs.«118291_j87479893885401_2_alg».proof.Proof.Accumulate
import proofs.«118291_j87479893885401_2_alg».proof.Proof.Reindex
import proofs.«118291_j87479893885401_2_alg».proof.Proof.RefReads
import proofs.«118291_j87479893885401_2_alg».proof.Proof.SegmentSum
import proofs.«118291_j87479893885401_2_alg».proof.Proof.ScalarLaws
import proofs.«118291_j87479893885401_2_alg».proof.Proof.Gen.ReferenceIdeal.Read
import Idealize.ShloMosaic.Lib.StableHlo.Run

noncomputable section

open Idealize.ShloMosaic Idealize.ShloMosaic.TcCoe Idealize.SL.Sem

namespace Cert.KernelIdeal.Bridge

open Cert.KernelIdeal Cert.KernelIdeal.Gen Idealize.ShloMosaic.StableHlo

section Host

variable {F : FTy → Type} [FloatOps F]

/-- The last host stretch, from any contents `W` of the buffers: the result is `v8` plus the regulariser of the column
    norms `sqrt v9`, the group sums being the row sums of the lower 1024 norms laid out as [64, 16]. -/
theorem tail_read (W : Valuation τ sig (Elt F)) :
    StableHlo.after (hostOps2 (F := F)) W (Proc.devRef .tc main_v40)
      = addf (W (Proc.devRef .tc main_v8))
          (Cert.Spec.regTail
            (Host.sqrt (shapeCast S2048 (W (Proc.devRef .tc main_v9)) shapeCasts_S1x2048_S2048))
            (Host.reduceAdd (shapeCast S64x16 (extractStridedSlice S1024 ![0]
                (Host.sqrt (shapeCast S2048 (W (Proc.devRef .tc main_v9)) shapeCasts_S1x2048_S2048)) slices_S2048_S1024_0) shapeCasts_S1024_S64x16)
              (constant S_ .f32 0x00000000#32) reducesTo_S64x16_S64_d1 h_S_)) := by
  after_results_simp
  rfl

/-- The middle host stretch, from any contents `W`: `v8` is the sum of the entries (0, 0) and (8, 0) of the first
    pipeline's output over the element count. -/
theorem mid_read (W : Valuation τ sig (Elt F)) :
    StableHlo.after (hostOps1 (F := F)) W (Proc.devRef .tc main_v8)
      = Host.divf (addf (shapeCast S_ (extractStridedSlice S1x1 ![0, 0] (W (Proc.devRef .tc main_v2)) slices_S16x128_S1x1_0_0) shapeCasts_S1x1_S_)
                        (shapeCast S_ (extractStridedSlice S1x1 ![8, 0] (W (Proc.devRef .tc main_v2)) slices_S16x128_S1x1_8_0) shapeCasts_S1x1_S_))
          (constant S_ .f32 0x4B000000#32) := by
  after_results_simp
  rfl

/-- A [1, 1] slice at row `r`, column 0, reshaped to a scalar, reads one entry of row `r`. -/
theorem corner_read {α : Type} (A : S16x128.Idx → α) (r : Nat) (h1 : S16x128.Slices ![r, 0] S1x1) (h2 : S1x1.ShapeCasts S_)
    (i : S_.Idx) :
    ∃ j : S16x128.Idx, (j 0).val = r ∧ shapeCast S_ (extractStridedSlice S1x1 ![r, 0] A h1) h2 i = A j := by
  refine ⟨_, ?_, rfl⟩
  show r + ((Shape.reshapeEquiv h2 i) ((0 : Fin 2).cast h1.1.symm)).val = r
  have hlt : ((Shape.reshapeEquiv h2 i) ((0 : Fin 2).cast h1.1.symm)).val < 1 :=
    ((Shape.reshapeEquiv h2 i) ((0 : Fin 2).cast h1.1.symm)).isLt
  omega

end Host

variable (m : (ℓ : Loc nD τ sig) → Buf (Elt Ideal) ℓ) (ρ : Dev nD → PrngReg)

/-- The two corners of the first pipeline's output add up to the reference's summed loss, for binary labels. -/
theorem loss_sum_eq (c : Dev nD)
    (hy : ∀ k : S8388608.Idx, (m ((c.tc : Thread nD τ).loc main_arg1) : FVec Ideal S8388608 .f32) k = (0 : EReal)
      ∨ (m ((c.tc : Thread nD τ).loc main_arg1) : FVec Ideal S8388608 .f32) k = (1 : EReal)) :
    addf (F := Ideal) (φ := .f32)
        (shapeCast S_ (extractStridedSlice S1x1 ![0, 0] (W2 m ρ c (Proc.devRef .tc main_v2)) slices_S16x128_S1x1_0_0) shapeCasts_S1x1_S_)
        (shapeCast S_ (extractStridedSlice S1x1 ![8, 0] (W2 m ρ c (Proc.devRef .tc main_v2)) slices_S16x128_S1x1_8_0) shapeCasts_S1x1_S_)
      = (Cert.ReferenceIdeal.Read.val_main_v16 (F := Ideal) (m ((c.tc : Thread nD τ).loc main_arg0)) (m ((c.tc : Thread nD τ).loc main_arg1))
          : FVec Ideal S_ .f32) := by
  have hA : W2 m ρ c (Proc.devRef .tc main_v2) = (dat0 (V1 m ρ) c).arrAt 2 cfg0.N := W2_arr m ρ c 2
  funext i
  obtain ⟨j0, hj0, e0⟩ := corner_read (W2 m ρ c (Proc.devRef .tc main_v2)) 0 slices_S16x128_S1x1_0_0 shapeCasts_S1x1_S_ i
  obtain ⟨j8, hj8, e8⟩ := corner_read (W2 m ρ c (Proc.devRef .tc main_v2)) 8 slices_S16x128_S1x1_8_0 shapeCasts_S1x1_S_ i
  show FloatOps.addf _ _ = _
  rw [e0, e8, Ideal.addf_def, hA, arr0_eq (V1 m ρ) c j0, arr0_eq (V1 m ρ) c j8, hj0, hj8]
  have hN : cfg0.N = 8 := N_0
  have hsplit : (Finset.univ.filter fun t : Fin cfg0.N => t.val / 4 = 8 / 8)
      = Finset.univ.filter fun t : Fin cfg0.N => ¬ t.val / 4 = 0 / 8 :=
    Finset.filter_congr fun t _ => by have := t.isLt; omega
  rw [hsplit, Finset.sum_filter_add_sum_filter_not, tot_sum m ρ c,
    Cert.ReferenceIdeal.Bridge.refsum_eq]
  exact Finset.sum_congr rfl fun k _ => Cert.Spec.nll_eq _ _ (hy k)

/-- The kernel's result is the reference's result term of the same arguments, for binary labels. -/
theorem result_eq (c : Dev nD)
    (hy : ∀ k : S8388608.Idx, (m ((c.tc : Thread nD τ).loc main_arg1) : FVec Ideal S8388608 .f32) k = (0 : EReal)
      ∨ (m ((c.tc : Thread nD τ).loc main_arg1) : FVec Ideal S8388608 .f32) k = (1 : EReal)) :
    result m ρ c = Cert.ReferenceIdeal.Read.val_main_v53 (F := Ideal) (m ((c.tc : Thread nD τ).loc main_arg0))
      (m ((c.tc : Thread nD τ).loc main_arg1)) (m ((c.tc : Thread nD τ).loc main_arg2)) := by
  have h9 : W4 m ρ c (Proc.devRef .tc main_v9) = k1_pay1 (F := Ideal) (m ((c.tc : Thread nD τ).loc main_arg2)) :=
    (W4_arr m ρ c 1).trans (arr1_eq m ρ c)
  have h8 : (W4 m ρ c (Proc.devRef .tc main_v8) : FVec Ideal S_ .f32)
      = Host.divf (F := Ideal) (φ := .f32)
          (Cert.ReferenceIdeal.Read.val_main_v16 (F := Ideal) (m ((c.tc : Thread nD τ).loc main_arg0)) (m ((c.tc : Thread nD τ).loc main_arg1))
            : FVec Ideal S_ .f32)
          (constant S_ .f32 0x4B000000#32) := by
    rw [W4_of_ne m ρ c main_v8 (by decide)]
    refine (mid_read (W2 m ρ c)).trans ?_
    rw [loss_sum_eq m ρ c hy]
  refine (tail_read (W4 m ρ c)).trans ?_
  rw [h8, h9, Cert.ReferenceIdeal.Bridge.colsum_eq (m ((c.tc : Thread nD τ).loc main_arg2)) shapeCasts_S1x2048_S2048,
    ← Cert.ReferenceIdeal.Bridge.segsum_eq _ shapeCasts_S1024_S64x16 reducesTo_S64x16_S64_d1 h_S_]
  rfl

end Cert.KernelIdeal.Bridge

end
-- ==== Proof.lean ====
/- The proof of `Cert.Claim`: the weighted binary cross-entropy with a group-norm regulariser, computed by two pipelined
   kernels and host glue, against its plain reference, over the extended reals, for finite inputs whose labels are
   exactly 0 or 1.

   The three frames: the two kernel programs' are their generated frame certificates; the reference's is its generated
   run with the result dropped. The ideal pass rewrote nothing, so `preserves` is trivial. The value claim: the
   idealized kernel's run ends with its result buffer at the last boundary's contents (Proof/KernelRun.lean), which is
   the reference's result term of the same arguments (Proof/KernelValue.lean) — the first kernel's two per-core block
   sums add up to the sum over all elements (Proof/Accumulate.lean, Proof/Reindex.lean, Proof/Payload.lean), whose
   per-element term with one logarithm is the reference's with two when the label is 0 or 1 (Proof/ScalarLaws.lean,
   where the precondition is also decoded); the second kernel's column sums of squares are the reference's
   (Proof/Region1.lean, Proof/RefReads.lean); and the row sums of the norms laid out as [64, 16] are the reference's
   segment sums (Proof/SegmentSum.lean); the rest of the host computation is the same on both sides (Proof/Tail.lean). -/
import proofs.«118291_j87479893885401_2_alg».proof.Defs
import proofs.«118291_j87479893885401_2_alg».proof.Proof.Gen.Kernel
import proofs.«118291_j87479893885401_2_alg».proof.Proof.Gen.Kernel.Skeleton
import proofs.«118291_j87479893885401_2_alg».proof.Proof.Gen.Kernel.Launch
import proofs.«118291_j87479893885401_2_alg».proof.Proof.Gen.Kernel.Points
import proofs.«118291_j87479893885401_2_alg».proof.Proof.Gen.Kernel.Frame
import proofs.«118291_j87479893885401_2_alg».proof.Proof.Gen.KernelIdeal
import proofs.«118291_j87479893885401_2_alg».proof.Proof.Gen.KernelIdeal.Skeleton
import proofs.«118291_j87479893885401_2_alg».proof.Proof.Gen.KernelIdeal.Launch
import proofs.«118291_j87479893885401_2_alg».proof.Proof.Gen.KernelIdeal.Points
import proofs.«118291_j87479893885401_2_alg».proof.Proof.Gen.KernelIdeal.Frame
import proofs.«118291_j87479893885401_2_alg».proof.Proof.Gen.ReferenceIdeal
import proofs.«118291_j87479893885401_2_alg».proof.Proof.Gen.Pre_finite_inputs
import proofs.«118291_j87479893885401_2_alg».proof.Proof.Gen.ReferenceIdeal.Run
import proofs.«118291_j87479893885401_2_alg».proof.Proof.Gen.ReferenceIdeal.Read
import proofs.«118291_j87479893885401_2_alg».proof.Proof.KernelRun
import proofs.«118291_j87479893885401_2_alg».proof.Proof.KernelValue
import proofs.«118291_j87479893885401_2_alg».proof.Proof.ScalarLaws
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result buffer ends at the fold's last contents, the reference's at its composed
    term of arguments that agree with the kernel's, and for labels in {0, 1} the two are one function of them. -/
theorem algebraic : Cert.algebraic_KernelIdeal_ReferenceIdeal := by
  intro m ρ m' ρ' hpre hagree
  refine ⟨fun c => Cert.KernelIdeal.Bridge.result m ρ c, Cert.KernelIdeal.Bridge.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2]
  exact (Cert.KernelIdeal.Bridge.result_eq m ρ c (Cert.KernelIdeal.Bridge.y_binary m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
